-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128x96 : Shape := ⟨4, ![32, 128, 128, 96]⟩
abbrev S32x1x16x16 : Shape := ⟨4, ![32, 1, 16, 16]⟩
abbrev S96 : Shape := ⟨1, ![96]⟩
abbrev S_ : Shape := ⟨0, ![]⟩

class Facts : Prop where
  bcast_S_S32x128x128x96 : S_.BroadcastsInDim S32x128x128x96 (![] : Fin 0 → Fin S32x128x128x96.rank)
  reducesTo_S32x128x128x96_S_d0_1_2_3 : S32x128x128x96.ReducesTo [0, 1, 2, 3] S_
  h_S_ : 0 < S_.numel
  bcast_S_S96 : S_.BroadcastsInDim S96 (![] : Fin 0 → Fin S96.rank)
  reducesTo_S96_S_d0 : S96.ReducesTo [0] S_

variable [Facts]

def fn {F : FTy → Type} [FloatOps F] (main_arg0 : FVec F S32x128x128x96 .f32) (main_arg1 : IVec S32x1x16x16 32) (main_arg2 : FVec F S96 .f32) (main_arg3 : FVec F S96 .f32) : IVec S_ 1 :=
  let main_v0 : FVec F S32x128x128x96 .f32 := Host.absf main_arg0
  let main_cst : FVec F S_ .f32 := constant S_ .f32 0x7F800000#32
  let main_v1 : FVec F S32x128x128x96 .f32 := broadcastInDim S32x128x128x96 ![] bcast_S_S32x128x128x96 main_cst
  let main_v2 : IVec S32x128x128x96 1 := cmpf .olt main_v0 main_v1
  let main_c : IVec S_ 1 := constantI S_ 1 1#1
  let main_v3 : IVec S_ 1 := (fun x v => Host.reduce IntOp.andi x v reducesTo_S32x128x128x96_S_d0_1_2_3 h_S_) main_v2 main_c
  let main_v4 : FVec F S96 .f32 := Host.absf main_arg2
  let main_cst_0 : FVec F S_ .f32 := constant S_ .f32 0x7F800000#32
  let main_v5 : FVec F S96 .f32 := broadcastInDim S96 ![] bcast_S_S96 main_cst_0
  let main_v6 : IVec S96 1 := cmpf .olt main_v4 main_v5
  let main_c_1 : IVec S_ 1 := constantI S_ 1 1#1
  let main_v7 : IVec S_ 1 := (fun x v => Host.reduce IntOp.andi x v reducesTo_S96_S_d0 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  main_v13
-- ==== Kernel.lean ====
abbrev S32x128x128x96 : Shape := ⟨4, ![32, 128, 128, 96]⟩
abbrev S32x1x16x16 : Shape := ⟨4, ![32, 1, 16, 16]⟩
abbrev S96 : Shape := ⟨1, ![96]⟩
abbrev S32x128x96x128 : Shape := ⟨4, ![32, 128, 96, 128]⟩
abbrev S96x1 : Shape := ⟨2, ![96, 1]⟩
abbrev S96x128 : Shape := ⟨2, ![96, 128]⟩
abbrev S1x1x16x16 : Shape := ⟨4, ![1, 1, 16, 16]⟩
abbrev S1x128x96x128 : Shape := ⟨4, ![1, 128, 96, 128]⟩
abbrev S128x96x128 : Shape := ⟨3, ![128, 96, 128]⟩
abbrev S128x128 : Shape := ⟨2, ![128, 128]⟩
abbrev S128x1x128 : Shape := ⟨3, ![128, 1, 128]⟩
abbrev S16x16 : Shape := ⟨2, ![16, 16]⟩
abbrev S128x16 : Shape := ⟨2, ![128, 16]⟩
abbrev S16x128 : Shape := ⟨2, ![16, 128]⟩
abbrev S1x96x128 : Shape := ⟨3, ![1, 96, 128]⟩

abbrev nBuf : Space → Nat
  | .hbm => 11
  | .vmem => 8
  | .smem => 0
  | _ => 0

abbrev bufTy : (tb : Table) → Fin (tcTables nBuf tb) → BufTy
  | .hbm, ⟨0, _⟩ => ⟨S32x128x128x96, .f32⟩
  | .hbm, ⟨1, _⟩ => ⟨S32x1x16x16, .i32⟩
  | .hbm, ⟨2, _⟩ => ⟨S96, .f32⟩
  | .hbm, ⟨3, _⟩ => ⟨S96, .f32⟩
  | .hbm, ⟨4, _⟩ => ⟨S32x128x96x128, .f32⟩
  | .hbm, ⟨5, _⟩ => ⟨S96x1, .f32⟩
  | .hbm, ⟨6, _⟩ => ⟨S96x128, .f32⟩
  | .hbm, ⟨7, _⟩ => ⟨S96x1, .f32⟩
  | .hbm, ⟨8, _⟩ => ⟨S96x128, .f32⟩
  | .hbm, ⟨9, _⟩ => ⟨S32x128x96x128, .f32⟩
  | .hbm, ⟨10, _⟩ => ⟨S32x128x128x96, .f32⟩
  | .local _ .vmem, ⟨0, _⟩ => ⟨S1x1x16x16, .i32⟩
  | .local _ .vmem, ⟨1, _⟩ => ⟨S1x1x16x16, .i32⟩
  | .local _ .vmem, ⟨2, _⟩ => ⟨S1x128x96x128, .f32⟩
  | .local _ .vmem, ⟨3, _⟩ => ⟨S1x128x96x128, .f32⟩
  | .local _ .vmem, ⟨4, _⟩ => ⟨S96x128, .f32⟩
  | .local _ .vmem, ⟨5, _⟩ => ⟨S96x128, .f32⟩
  | .local _ .vmem, ⟨6, _⟩ => ⟨S1x128x96x128, .f32⟩
  | .local _ .vmem, ⟨7, _⟩ => ⟨S1x128x96x128, .f32⟩
  | _, _ => ⟨S32x128x128x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![32, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x16x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x96x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S96x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x96x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  transposes_S32x128x128x96_S32x128x96x128_0_1_3_2 : S32x128x128x96.Transposes [0, 1, 3, 2] S32x128x96x128
  bcast_S96_S96x1_0 : S96.BroadcastsInDim S96x1 (![0] : Fin 1 → Fin S96x1.rank)
  bcast_S96x1_S96x128_0_1 : S96x1.BroadcastsInDim S96x128 (![0, 1] : Fin 2 → Fin S96x128.rank)
  inb_S1x128x96x128_S1x128x96x128_0_0_0_0 : ∀ a, (![0, 0, 0, 0] : Fin 4 → Nat) a + S1x128x96x128.size a ≤ S1x128x96x128.size a
  h_S1x128x96x128 : 0 < S1x128x96x128.numel
  shapeCasts_S1x128x96x128_S128x96x128 : S1x128x96x128.ShapeCasts S128x96x128
  reduces_S128x96x128_S128x128 : S128x96x128.Reduces [1] S128x128
  shapeCasts_S128x128_S128x1x128 : S128x128.ShapeCasts S128x1x128
  broadcasts_S128x1x128_S128x96x128 : S128x1x128.Broadcasts S128x96x128
  inb_S1x1x16x16_S1x1x16x16_0_0_0_0 : ∀ a, (![0, 0, 0, 0] : Fin 4 → Nat) a + S1x1x16x16.size a ≤ S1x1x16x16.size a
  h_S1x1x16x16 : 0 < S1x1x16x16.numel
  shapeCasts_S1x1x16x16_S16x16 : S1x1x16x16.ShapeCasts S16x16
  iota_S128x16_d0_w32 : S128x16.Iotas .tc 32 [0]
  natLt_1_32 : 1 < 32
  iota_S128x16_d1_w32 : S128x16.Iotas .tc 32 [1]
  iota_S16x128_d1_w32 : S16x128.Iotas .tc 32 [1]
  iota_S16x128_d0_w32 : S16x128.Iotas .tc 32 [0]
  inb_S96x128_S96x128_0_0 : ∀ a, (![0, 0] : Fin 2 → Nat) a + S96x128.size a ≤ S96x128.size a
  h_S96x128 : 0 < S96x128.numel
  shapeCasts_S96x128_S96x128 : S96x128.ShapeCasts S96x128
  shapeCasts_S96x128_S1x96x128 : S96x128.ShapeCasts S1x96x128
  broadcasts_S1x96x128_S128x96x128 : S1x96x128.Broadcasts S128x96x128
  shapeCasts_S128x96x128_S1x128x96x128 : S128x96x128.ShapeCasts S1x128x96x128
  transposes_S32x128x96x128_S32x128x128x96_0_1_3_2 : S32x128x96x128.Transposes [0, 1, 3, 2] S32x128x128x96
  dot_S128x16_S16x16_S128x16_1_0_0_1_n_n_wf : DotDims.WF S128x16 S16x16 S128x16 [1] [0] [0] [1] [] []
  dot_S128x16_S16x128_S128x128_1_0_0_1_n_n_wf : DotDims.WF S128x16 S16x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x16x16.size a ≤ S32x1x16x16.size a
  hwx0_0 : ∀ i : grid0.Coords, EltTy.bits .i32 = 32 ∨ (Rect.block (s := S32x1x16x16) S1x1x16x16.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x96x128.size a ≤ S32x128x96x128.size a
  hwx0_1 : ∀ i : grid0.Coords, EltTy.bits .f32 = 32 ∨ (Rect.block (s := S32x128x96x128) S1x128x96x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x128.size a ≤ S96x128.size a
  hwx0_2 : ∀ i : grid0.Coords, EltTy.bits .f32 = 32 ∨ (Rect.block (s := S96x128) S96x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x96x128.size a ≤ S32x128x96x128.size a
  hwx0_4 : ∀ i : grid0.Coords, EltTy.bits .f32 = 32 ∨ (Rect.block (s := S32x128x96x128) S1x128x96x128.size (cc0_transform_4 i) (hinb0_4 i)).WholeWords (EltTy.packing .f32)

variable [Facts₀]

def dot_S128x16_S16x16_S128x16_1_0_0_1_n_n : DotDims S128x16 S16x16 S128x16 where
  lhsContracting := [1]
  rhsContracting := [0]
  lhsNonContracting := [0]
  rhsNonContracting := [1]
  lhsBatch := []
  rhsBatch := []
  wf := dot_S128x16_S16x16_S128x16_1_0_0_1_n_n_wf
def dot_S128x16_S16x128_S128x128_1_0_0_1_n_n : DotDims S128x16 S16x128 S128x128 where
  lhsContracting := [1]
  rhsContracting := [0]
  lhsNonContracting := [0]
  rhsNonContracting := [1]
  lhsBatch := []
  rhsBatch := []
  wf := dot_S128x16_S16x128_S128x128_1_0_0_1_n_n_wf

abbrev win0_0 : Pipeline.Window sig grid0 :=
  Pipeline.Window.ofSpec (Memref.whole main_arg1) S1x1x16x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128x96x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S96x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128x96x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x128x128x96 : Shape := ⟨4, ![32, 128, 128, 96]⟩
abbrev S32x1x16x16 : Shape := ⟨4, ![32, 1, 16, 16]⟩
abbrev S96 : Shape := ⟨1, ![96]⟩
abbrev S32x1x16x8x16 : Shape := ⟨5, ![32, 1, 16, 8, 16]⟩
abbrev S32x1x128x16 : Shape := ⟨4, ![32, 1, 128, 16]⟩
abbrev S32x1x128x16x8 : Shape := ⟨5, ![32, 1, 128, 16, 8]⟩
abbrev S32x1x128x128 : Shape := ⟨4, ![32, 1, 128, 128]⟩
abbrev S32x128x128 : Shape := ⟨3, ![32, 128, 128]⟩
abbrev S32x128x128x1 : Shape := ⟨4, ![32, 128, 128, 1]⟩
abbrev S_ : Shape := ⟨0, ![]⟩
abbrev S1x1x1x96 : Shape := ⟨4, ![1, 1, 1, 96]⟩

abbrev nBuf : Space → Nat
  | .hbm => 42
  | .vmem => 0
  | .smem => 0
  | _ => 0

abbrev bufTy : (tb : Table) → Fin (tcTables nBuf tb) → BufTy
  | .hbm, ⟨0, _⟩ => ⟨S32x128x128x96, .f32⟩
  | .hbm, ⟨1, _⟩ => ⟨S32x1x16x16, .i32⟩
  | .hbm, ⟨2, _⟩ => ⟨S96, .f32⟩
  | .hbm, ⟨3, _⟩ => ⟨S96, .f32⟩
  | .hbm, ⟨4, _⟩ => ⟨S32x1x16x8x16, .i32⟩
  | .hbm, ⟨5, _⟩ => ⟨S32x1x128x16, .i32⟩
  | .hbm, ⟨6, _⟩ => ⟨S32x1x128x16x8, .i32⟩
  | .hbm, ⟨7, _⟩ => ⟨S32x1x128x128, .i32⟩
  | .hbm, ⟨8, _⟩ => ⟨S32x128x128, .i32⟩
  | .hbm, ⟨9, _⟩ => ⟨S32x128x128x1, .i32⟩
  | .hbm, ⟨10, _⟩ => ⟨S32x128x128x1, .f32⟩
  | .hbm, ⟨11, _⟩ => ⟨S_, .f32⟩
  | .hbm, ⟨12, _⟩ => ⟨S32x128x128, .f32⟩
  | .hbm, ⟨13, _⟩ => ⟨S32x128x128x1, .f32⟩
  | .hbm, ⟨14, _⟩ => ⟨S_, .f32⟩
  | .hbm, ⟨15, _⟩ => ⟨S32x128x128x1, .f32⟩
  | .hbm, ⟨16, _⟩ => ⟨S32x128x128x1, .f32⟩
  | .hbm, ⟨17, _⟩ => ⟨S32x128x128x96, .f32⟩
  | .hbm, ⟨18, _⟩ => ⟨S32x128x128x96, .f32⟩
  | .hbm, ⟨19, _⟩ => ⟨S32x128x128x96, .f32⟩
  | .hbm, ⟨20, _⟩ => ⟨S_, .f32⟩
  | .hbm, ⟨21, _⟩ => ⟨S32x128x128, .f32⟩
  | .hbm, ⟨22, _⟩ => ⟨S32x128x128x1, .f32⟩
  | .hbm, ⟨23, _⟩ => ⟨S_, .f32⟩
  | .hbm, ⟨24, _⟩ => ⟨S32x128x128x1, .f32⟩
  | .hbm, ⟨25, _⟩ => ⟨S32x128x128x1, .f32⟩
  | .hbm, ⟨26, _⟩ => ⟨S32x128x128x96, .f32⟩
  | .hbm, ⟨27, _⟩ => ⟨S32x128x128x96, .f32⟩
  | .hbm, ⟨28, _⟩ => ⟨S_, .f32⟩
  | .hbm, ⟨29, _⟩ => ⟨S32x128x128x1, .f32⟩
  | .hbm, ⟨30, _⟩ => ⟨S32x128x128x1, .f32⟩
  | .hbm, ⟨31, _⟩ => ⟨S32x128x128x1, .f32⟩
  | .hbm, ⟨32, _⟩ => ⟨S32x128x128x96, .f32⟩
  | .hbm, ⟨33, _⟩ => ⟨S32x128x128x96, .f32⟩
  | .hbm, ⟨34, _⟩ => ⟨S1x1x1x96, .f32⟩
  | .hbm, ⟨35, _⟩ => ⟨S32x128x128x96, .f32⟩
  | .hbm, ⟨36, _⟩ => ⟨S32x128x128x96, .f32⟩
  | .hbm, ⟨37, _⟩ => ⟨S1x1x1x96, .f32⟩
  | .hbm, ⟨38, _⟩ => ⟨S32x128x128x96, .f32⟩
  | .hbm, ⟨39, _⟩ => ⟨S32x128x128x96, .f32⟩
  | .hbm, ⟨40, _⟩ => ⟨S32x128x128x96, .f32⟩
  | .hbm, ⟨41, _⟩ => ⟨S32x128x128x96, .f32⟩
  | _, _ => ⟨S32x128x128x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]

class Facts₀ : Prop where
  bcast_S32x1x16x16_S32x1x16x8x16_0_1_2_4 : S32x1x16x16.BroadcastsInDim S32x1x16x8x16 (![0, 1, 2, 4] : Fin 4 → Fin S32x1x16x8x16.rank)
  shapeCasts_S32x1x16x8x16_S32x1x128x16 : S32x1x16x8x16.ShapeCasts S32x1x128x16
  bcast_S32x1x128x16_S32x1x128x16x8_0_1_2_3 : S32x1x128x16.BroadcastsInDim S32x1x128x16x8 (![0, 1, 2, 3] : Fin 4 → Fin S32x1x128x16x8.rank)
  shapeCasts_S32x1x128x16x8_S32x1x128x128 : S32x1x128x16x8.ShapeCasts S32x1x128x128
  shapeCasts_S32x1x128x128_S32x128x128 : S32x1x128x128.ShapeCasts S32x128x128
  bcast_S32x128x128_S32x128x128x1_0_1_2 : S32x128x128.BroadcastsInDim S32x128x128x1 (![0, 1, 2] : Fin 3 → Fin S32x128x128x1.rank)
  reducesTo_S32x128x128x96_S32x128x128_d3 : S32x128x128x96.ReducesTo [3] S32x128x128
  h_S_ : 0 < S_.numel
  bcast_S_S32x128x128x1 : S_.BroadcastsInDim S32x128x128x1 (![] : Fin 0 → Fin S32x128x128x1.rank)
  bcast_S32x128x128x1_S32x128x128x96_0_1_2_3 : S32x128x128x1.BroadcastsInDim S32x128x128x96 (![0, 1, 2, 3] : Fin 4 → Fin S32x128x128x96.rank)
  bcast_S96_S1x1x1x96_3 : S96.BroadcastsInDim S1x1x1x96 (![3] : Fin 1 → Fin S1x1x1x96.rank)
  bcast_S1x1x1x96_S32x128x128x96_0_1_2_3 : S1x1x1x96.BroadcastsInDim S32x128x128x96 (![0, 1, 2, 3] : Fin 4 → Fin S32x128x128x96.rank)

variable [Facts₀]

class Facts : Prop extends Facts₀ where

variable [Facts]
-- ==== Proof.Spec.lean ====
/-
  Layer normalization over the 96 channels of one position, times a mask value: the function both
  programs compute at the extended reals, written once, and the one law that joins their two spellings
  (a product with the reciprocal square root against a quotient by the square root).
-/
import Idealize.ShloMosaic.PureOps.Ideal
import Idealize.ShloMosaic.PureOps.Ideal.Laws
import Idealize.ShloMosaic.Lib.ValueIdx

noncomputable section

namespace Cert.LN

open Idealize.ShloMosaic Idealize.ShloMosaic.ValueIdx
open scoped BigOperators

/-! ## The two constants -/

/-- The pattern of `96.0` denotes the real 96. -/
theorem n96_eq : Ideal.ofBits .f32 0x42C00000#32 = ((96 : ℝ) : EReal) := by
  simp [Ideal.ofBits, Ideal.ieee, -EReal.coe_mul]; norm_num

/-- The pattern of the variance's offset (about 1e-6) denotes a positive number. -/
theorem eps_pos : (0 : EReal) < Ideal.ofBits .f32 0x358637BD#32 := by
  simp [Ideal.ofBits, Ideal.ieee, -EReal.coe_mul]

/-! ## Signs on the extended reals -/

/-- A square is never negative, at the infinities too. -/
theorem mul_self_nonneg (a : EReal) : 0 ≤ a * a := by
  induction a using EReal.rec with
  | bot => rw [EReal.bot_mul_bot]; exact le_top
  | top => rw [EReal.top_mul_top]; exact le_top
  | coe r => rw [← EReal.coe_mul]; exact EReal.coe_nonneg.mpr (_root_.mul_self_nonneg r)

/-- A quotient of a non-negative number by 96 is not negative. -/
theorem div96_nonneg {a : EReal} (h : 0 ≤ a) : 0 ≤ Ideal.div a (Ideal.ofBits .f32 0x42C00000#32) := by
  rw [n96_eq, Ideal.div_coe (by norm_num)]
  exact mul_nonneg h (EReal.coe_nonneg.mpr (by norm_num))

/-- The mean of squares plus the offset is positive. -/
theorem var_eps_pos {ι : Type*} (s : Finset ι) (f : ι → EReal) :
    0 < Ideal.div (∑ k ∈ s, f k * f k) (Ideal.ofBits .f32 0x42C00000#32) + Ideal.ofBits .f32 0x358637BD#32 :=
  lt_of_lt_of_le eps_pos (le_add_of_nonneg_left (div96_nonneg (Finset.sum_nonneg fun k _ => mul_self_nonneg (f k))))

/-! ## The law -/

/-- At a positive argument (`+∞` included) the product with the reciprocal square root is the quotient by the
    square root. -/
theorem mul_rsqrt_eq_div_sqrt (x : EReal) {y : EReal} (hy : 0 < y) :
    x * Ideal.rsqrt y = Ideal.div x (Ideal.sqrt y) := by
  induction y using EReal.rec with
  | bot => exact absurd hy (not_lt.mpr bot_le)
  | top =>
    show x * 0 = Ideal.div x ⊤
    rw [Ideal.div, if_neg EReal.top_ne_zero, EReal.inv_top]
  | coe r =>
    have hr : 0 < r := EReal.coe_pos.mp hy
    have hs : 0 < Real.sqrt r := Real.sqrt_pos.mpr hr
    rw [Ideal.rsqrt_coe, if_neg (not_lt.mpr hr.le), if_neg hr.ne']
    show _ = Ideal.div x (if r < 0 then ⊥ else (Real.sqrt r : EReal))
    rw [if_neg (not_lt.mpr hr.le), Ideal.div, if_neg (by exact_mod_cast hs.ne'), EReal.coe_inv]

/-! ## The function -/

/-- One position's 96 channel values `col`, normalized at channel `c`: centred by the mean, scaled by the
    reciprocal square root of the mean square of the centred values plus the offset, then the affine pair
    `wt`, `bs` and the mask value `mk`. -/
def lnCore (col : Fin 96 → EReal) (c : Fin 96) (wt bs mk : EReal) : EReal :=
  (((col c - Ideal.div (∑ k, col k) (Ideal.ofBits .f32 0x42C00000#32))
      * Ideal.rsqrt (Ideal.div (∑ k, (col k - Ideal.div (∑ k', col k') (Ideal.ofBits .f32 0x42C00000#32))
                                    * (col k - Ideal.div (∑ k', col k') (Ideal.ofBits .f32 0x42C00000#32)))
                        (Ideal.ofBits .f32 0x42C00000#32) + Ideal.ofBits .f32 0x358637BD#32))
    * wt + bs) * mk

/-- The same with the quotient by the square root in place of the product with its reciprocal. -/
theorem lnCore_eq_div (col : Fin 96 → EReal) (c : Fin 96) (wt bs mk : EReal) :
    ((Ideal.div (col c - Ideal.div (∑ k, col k) (Ideal.ofBits .f32 0x42C00000#32))
        (Ideal.sqrt (Ideal.div (∑ k, (col k - Ideal.div (∑ k', col k') (Ideal.ofBits .f32 0x42C00000#32))
                                    * (col k - Ideal.div (∑ k', col k') (Ideal.ofBits .f32 0x42C00000#32)))
                        (Ideal.ofBits .f32 0x42C00000#32) + Ideal.ofBits .f32 0x358637BD#32)))
      * wt + bs) * mk = lnCore col c wt bs mk := by
  unfold lnCore
  rw [mul_rsqrt_eq_div_sqrt _ (var_eps_pos Finset.univ _)]

/-- The whole result `[32, 128, 128, 96]`: at `(b, h, w, c)` the normalization of the position's channels,
    with the affine pair at channel `c` and the mask entry of the position's 8 × 8 cell. -/
def G (x : (⟨4, ![32, 128, 128, 96]⟩ : Shape).Idx → EReal) (a : (⟨4, ![32, 1, 16, 16]⟩ : Shape).Idx → BitVec 32)
    (wt bs : (⟨1, ![96]⟩ : Shape).Idx → EReal) : (⟨4, ![32, 128, 128, 96]⟩ : Shape).Idx → EReal := fun i =>
  lnCore (fun k => x (ix4 (i 0) (i 1) (i 2) k)) (i 3) (wt (ix1 (i 3))) (bs (ix1 (i 3)))
    (FloatOps.sitofp (F := Ideal) .f32
      (a (ix4 (i 0) (0 : Fin 1) (⟨(i 1).val / 8, by have h : (i 1).val < 128 := (i 1).isLt; show (i 1).val / 8 < 16; omega⟩ : Fin 16)
        (⟨(i 2).val / 8, by have h : (i 2).val < 128 := (i 2).isLt; show (i 2).val / 8 < 16; omega⟩ : Fin 16))))

end Cert.LN

end
-- ==== Proof.RefIsG.lean ====
/-
  The reference program's result, read index by index: at `(b, h, w, c)` it is the layer normalization of the
  position's 96 channels (mean and mean square as sums over the channel axis divided by 96, the quotient by the
  square root), the affine pair at channel `c`, and the mask entry of the position's 8 × 8 cell, which the two
  repeats (a broadcast along a new axis of 8 followed by a reshape that merges it, twice) read at `(h / 8, w / 8)`.
-/
import proofs.«149506_g1726576857584_cont_7to1_533_26_alg».proof.Proof.Gen.ReferenceIdeal.Read
import proofs.«149506_g1726576857584_cont_7to1_533_26_alg».proof.Proof.Spec
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe
open scoped BigOperators

/-! ## The composed index maps, by coordinates -/

theorem idx_sum_a (b : Fin 32) (h w : Fin 128) (c k : Fin 96) :
    idx_main_v7 (idx_main_v8 (idx_main_v11 (ix4 b h w c))) k = ix4 b h w k :=
  funext fun a => Fin.ext (by match a with | ⟨0, _⟩ => rfl | ⟨1, _⟩ => rfl | ⟨2, _⟩ => rfl | ⟨3, _⟩ => rfl)

theorem idx_sum_b (b : Fin 32) (h w : Fin 128) (c k : Fin 96) :
    idx_main_v7 (idx_main_v8 (idx_main_v18 (ix4 b h w c))) k = ix4 b h w k :=
  funext fun a => Fin.ext (by match a with | ⟨0, _⟩ => rfl | ⟨1, _⟩ => rfl | ⟨2, _⟩ => rfl | ⟨3, _⟩ => rfl)

theorem idx_sq (b : Fin 32) (h w : Fin 128) (c k : Fin 96) :
    idx_main_v14 (idx_main_v15 (idx_main_v23 (ix4 b h w c))) k = ix4 b h w k :=
  funext fun a => Fin.ext (by match a with | ⟨0, _⟩ => rfl | ⟨1, _⟩ => rfl | ⟨2, _⟩ => rfl | ⟨3, _⟩ => rfl)

theorem idx_wt (b : Fin 32) (h w : Fin 128) (c : Fin 96) :
    idx_main_v25 (idx_main_v26 (ix4 b h w c)) = ix1 c :=
  funext fun a => Fin.ext (by match a with | ⟨0, _⟩ => rfl)

theorem idx_bs (b : Fin 32) (h w : Fin 128) (c : Fin 96) :
    idx_main_v28 (idx_main_v29 (ix4 b h w c)) = ix1 c :=
  funext fun a => Fin.ext (by match a with | ⟨0, _⟩ => rfl)

/-- The mask entry a position reads: the two repeats by 8 undo to the integer quotients of the row and the column. -/
theorem idx_mask (b : Fin 32) (h w : Fin 128) (c : Fin 96) :
    idx_main_v0 (idx_main_v1 (idx_main_v2 (idx_main_v3 (idx_main_v4 (idx_main_v5 (idx_main_v31 (ix4 b h w c)))))))
      = ix4 b (0 : Fin 1) (⟨h.val / 8, by have := h.isLt; omega⟩ : Fin 16) (⟨w.val / 8, by have := w.isLt; omega⟩ : Fin 16) := by
  have hb := b.isLt; have hh := h.isLt; have hw := w.isLt
  refine funext fun a => Fin.ext ?_
  match a with
  | ⟨0, _⟩ => dsimp only [ix4]; omega
  | ⟨1, _⟩ => rfl
  | ⟨2, _⟩ => dsimp only [ix4]; omega
  | ⟨3, _⟩ => dsimp only [ix4]; omega

/-! ## The reference's result is `G` of its arguments -/

theorem ref_eq_G (x0 : (⟨S32x128x128x96, .f32⟩ : BufTy).Contents (Elt Ideal)) (x1 : (⟨S32x1x16x16, .i32⟩ : BufTy).Contents (Elt Ideal))
    (x2 x3 : (⟨S96, .f32⟩ : BufTy).Contents (Elt Ideal)) :
    val_main_v32 (F := Ideal) x0 x1 x2 x3 = Cert.LN.G x0 x1 x2 x3 := by
  funext i
  obtain ⟨b, h, w, c, rfl⟩ : ∃ (b : Fin 32) (h w : Fin 128) (c : Fin 96), i = ix4 b h w c := ⟨i 0, i 1, i 2, i 3, eq_ix4 i⟩
  simp only [val_main_v32_apply, val_main_v31_apply, val_main_v30_apply, val_main_v29_apply, val_main_v28_apply,
    val_main_v27_apply, val_main_v26_apply, val_main_v25_apply, val_main_v24_apply, val_main_v23_apply, val_main_v22_apply,
    val_main_v21_apply, val_main_v20_apply, val_main_cst_3_apply, val_main_v19_apply, val_main_v18_apply, val_main_v17_apply,
    val_main_v16_apply, val_main_cst_2_apply, val_main_v15_apply, val_main_v14_apply, val_main_cst_1_apply, val_main_v13_apply,
    val_main_v12_apply, val_main_v11_apply, val_main_v10_apply, val_main_v9_apply, val_main_cst_0_apply, val_main_v8_apply,
    val_main_v7_apply, val_main_cst_apply, val_main_v6_apply, val_main_v5_apply, val_main_v4_apply, val_main_v3_apply,
    val_main_v2_apply, val_main_v1_apply, val_main_v0_apply,
    idx_sum_a, idx_sum_b, idx_sq, idx_wt, idx_bs, idx_mask]
  simp only [Ideal.mulf_def, Ideal.addf_def, Ideal.subf_def, Ideal.hostDivf_def, Ideal.hostUnary_sqrt_def, Ideal.ofBits_def,
    Ideal.ofBits_zero_f32, zero_add]
  exact Cert.LN.lnCore_eq_div (fun k => x0 (ix4 b h w k)) c _ _ _

end Cert.ReferenceIdeal.RefValue

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.LibMid.lean ====
/-
  Layout operations around a middle axis, read at coordinates: an `[a, b]` array cast to `[a, 1, b]`; an `[a, 1, b]`
  array broadcast over a middle axis of `n`; a `[1, n, b]` array broadcast over a leading axis of `a`; and the sum
  over the middle axis of an `[a, n, b]` array at the extended reals.
-/
import Idealize.ShloMosaic.PureOps.Ideal.Laws
import Idealize.ShloMosaic.Lib.ValueIdx
import Idealize.ShloMosaic.Lib.Pipeline.Value

noncomputable section

namespace Cert.LibMid

open Idealize.ShloMosaic Idealize.ShloMosaic.ValueIdx
open scoped BigOperators

variable {α : Type} {a n b : ℕ}

/-- An `[a, b]` array cast to `[a, 1, b]` reads, at `(p, u, q)`, the operand at `(p, q)`. -/
theorem shapeCast_ab_a1b_apply (x : (⟨2, ![a, b]⟩ : Shape).Idx → α) (h : (⟨2, ![a, b]⟩ : Shape).ShapeCasts ⟨3, ![a, 1, b]⟩)
    (p : Fin a) (u : Fin 1) (q : Fin b) : shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- An `[a, 1, b]` array broadcast to `[a, n, b]` reads, at `(p, c, q)`, the operand at `(p, 0, q)`. -/
theorem broadcastTo_a1b_anb_apply (x : (⟨3, ![a, 1, b]⟩ : Shape).Idx → α) (h : (⟨3, ![a, 1, b]⟩ : Shape).Broadcasts ⟨3, ![a, n, b]⟩)
    (p : Fin a) (c : Fin n) (q : Fin b) : broadcastTo ⟨3, ![a, n, b]⟩ x h (ix3 p c q) = x (ix3 p (0 : Fin 1) q) := by
  refine broadcastTo_apply x h (ix3 p c q) (ix3 p (0 : Fin 1) q) fun ax => ?_
  match ax with
  | ⟨0, _⟩ =>
    show p.val = if a = 1 then 0 else p.val
    split
    · have := p.isLt; omega
    · rfl
  | ⟨1, _⟩ => show 0 = if (1 : ℕ) = 1 then 0 else c.val; rw [if_pos rfl]
  | ⟨2, _⟩ =>
    show q.val = if b = 1 then 0 else q.val
    split
    · have := q.isLt; omega
    · rfl

/-- A `[1, n, b]` array broadcast to `[a, n, b]` reads, at `(p, c, q)`, the operand at `(0, c, q)`. -/
theorem broadcastTo_1nb_anb_apply (x : (⟨3, ![1, n, b]⟩ : Shape).Idx → α) (h : (⟨3, ![1, n, b]⟩ : Shape).Broadcasts ⟨3, ![a, n, b]⟩)
    (p : Fin a) (c : Fin n) (q : Fin b) : broadcastTo ⟨3, ![a, n, b]⟩ x h (ix3 p c q) = x (ix3 (0 : Fin 1) c q) := by
  refine broadcastTo_apply x h (ix3 p c q) (ix3 (0 : Fin 1) c q) fun ax => ?_
  match ax with
  | ⟨0, _⟩ => show 0 = if (1 : ℕ) = 1 then 0 else p.val; rw [if_pos rfl]
  | ⟨1, _⟩ =>
    show c.val = if n = 1 then 0 else c.val
    split
    · have := c.isLt; omega
    · rfl
  | ⟨2, _⟩ =>
    show q.val = if b = 1 then 0 else q.val
    split
    · have := q.isLt; omega
    · rfl

/-- The sum over the middle axis of an `[a, n, b]` array, at the extended reals and at `(p, q)`: the sum over `k` of
    the array at `(p, k, q)`. -/
theorem multiReduction_add_mid_apply {φ : FTy} (src : FVec Ideal ⟨3, ![a, n, b]⟩ φ) (acc : BitVec φ.bits)
    (h : (⟨3, ![a, n, b]⟩ : Shape).Reduces [(1 : Fin 3)] ⟨2, ![a, b]⟩) (hφ : FKind.Formats φ) (hacc : acc = FKind.add.neutral φ hφ)
    (p : Fin a) (q : Fin b) :
    multiReduction .add [(1 : Fin 3)] ⟨2, ![a, b]⟩ src acc h hφ hacc (ix2 p q) = ∑ k : Fin n, src (ix3 p k q) := by
  rw [Ideal.multiReduction_add_single]
  refine Finset.sum_congr rfl fun k _ => congrArg src (funext fun c => Fin.ext ?_)
  match c with
  | ⟨0, _⟩ => rfl
  | ⟨1, _⟩ => rfl
  | ⟨2, _⟩ => rfl

end Cert.LibMid

end
-- ==== Proof.Mask.lean ====
/-
  The kernel's mask. The body expands the block's 16 × 16 integer mask to 128 × 128 by two products with
  one-hot matrices: `E` (128 × 16) has a one at `(r, j)` where `⌊r / 8⌋ = j`, `E'` (16 × 128) a one at `(k, w)`
  where `⌊w / 8⌋ = k`; both are built from iotas by the floor-division idiom (a truncating quotient corrected
  where signs differ and the remainder is not zero). So `(E · A · E') (r, w) = A (⌊r / 8⌋, ⌊w / 8⌋)`: each sum has
  one non-zero term, and `0 · a = 0`, `1 · a = a` hold for every extended real.
-/
import proofs.«149506_g1726576857584_cont_7to1_533_26_alg».proof.Proof.Gen.KernelIdeal.Skeleton
import Idealize.ShloMosaic.PureOps.Ideal.Laws
import Idealize.ShloMosaic.Lib.ValueIdx
import Idealize.ShloMosaic.Lib.Pipeline.Value
import proofs.«149506_g1726576857584_cont_7to1_533_26_alg».proof.Proof.LibPlainDot
import proofs.«149506_g1726576857584_cont_7to1_533_26_alg».proof.Proof.LibMid

set_option maxRecDepth 16384

noncomputable section

namespace Cert.KernelIdeal.KValue

open Cert.KernelIdeal Cert.KernelIdeal.Gen
open Idealize.ShloMosaic Idealize.ShloMosaic.ValueIdx
open scoped BigOperators

/-! ## The floor-division idiom and the one-hot words -/

/-- `⌊x / 8⌋` on one signed word, as the body spells it. -/
def fd8 (x : BitVec 32) : BitVec 32 :=
  Scalar.select
    (IntOp.andi
      (IntOp.cmpi .ne (IntOp.subi ((IntOp.cmpi .sgt x 0#32).setWidth 32) ((IntOp.cmpi .slt x 0#32).setWidth 32))
        (Scalar.subi (Scalar.extui (Scalar.cmpi .sgt 8#32 0#32)) (Scalar.extui (Scalar.cmpi .slt 8#32 0#32))))
      (IntOp.cmpi .ne (IntOp.remsi .vector x 8#32) 0#32))
    (IntOp.subi (IntOp.divsi .vector x 8#32) 1#32) (IntOp.divsi .vector x 8#32)

/-- The one-hot word: one where `⌊x / 8⌋ = y`. -/
def hotS (x y : BitVec 32) : BitVec 32 := (IntOp.cmpi .eq (fd8 x) y).setWidth 32

/-- Decided over the 128 × 16 pairs the two matrices meet. -/
theorem hotS_eq : ∀ (n : Fin 128) (j : Fin 16),
    hotS (BitVec.ofNat 32 n.val) (BitVec.ofNat 32 j.val) = if n.val / 8 = j.val then 1#32 else 0#32 := by
  decide +kernel

/-- The same idiom on a vector of words. -/
def fd8v {s : Shape} (x : IVec s 32) : IVec s 32 := fun i => fd8 (x i)

/-- The one-hot matrix of two vectors of words. -/
def hot {s : Shape} (a b : IVec s 32) : IVec s 32 := fun i => hotS (a i) (b i)

/-- The body's mask payload is the two products around the block's mask. -/
theorem pay8_eq (v15 : FVec Ideal S16x16 .f32) :
    k0_pay8 (F := Ideal) v15 k0_pay5 k0_pay6 k0_pay7
      = shapeCast S128x1x128
          (matmul dot_S128x16_S16x128_S128x128_1_0_0_1_n_n none
            (matmul dot_S128x16_S16x16_S128x16_1_0_0_1_n_n none
              (sitofp .f32 (hot (iota .tc S128x16 32 [0] Facts₀.iota_S128x16_d0_w32) (iota .tc S128x16 32 [1] Facts₀.iota_S128x16_d1_w32)))
              v15 (constant S128x16 .f32 0x00000000#32))
            (sitofp .f32 (hot (iota .tc S16x128 32 [1] Facts₀.iota_S16x128_d1_w32) (iota .tc S16x128 32 [0] Facts₀.iota_S16x128_d0_w32)))
            (constant S128x128 .f32 0x00000000#32))
          Facts₀.shapeCasts_S128x128_S128x1x128 := rfl

/-! ## The one-hot matrices at an index -/

/-- A one-hot word as a float: one or zero. -/
theorem sitofp_hot (p : Prop) [Decidable p] :
    FloatOps.sitofp (F := Ideal) .f32 (if p then 1#32 else 0#32) = if p then (1 : EReal) else 0 := by
  split
  · show (((1#32 : BitVec 32).toInt : ℝ) : EReal) = 1
    rw [show (1#32 : BitVec 32).toInt = 1 from by decide]; simp
  · show (((0#32 : BitVec 32).toInt : ℝ) : EReal) = 0
    rw [show (0#32 : BitVec 32).toInt = 0 from by decide]; simp

/-- `E (r, j)` is one where `⌊r / 8⌋ = j`. -/
theorem E_apply (r : Fin 128) (j : Fin 16) :
    (sitofp .f32 (hot (iota .tc S128x16 32 [0] Facts₀.iota_S128x16_d0_w32) (iota .tc S128x16 32 [1] Facts₀.iota_S128x16_d1_w32)) : FVec Ideal S128x16 .f32) (ix2 r j)
      = if r.val / 8 = j.val then 1 else 0 := by
  show FloatOps.sitofp .f32 (hotS (iota .tc S128x16 32 [0] Facts₀.iota_S128x16_d0_w32 (ix2 r j)) (iota .tc S128x16 32 [1] Facts₀.iota_S128x16_d1_w32 (ix2 r j))) = _
  rw [iota_single_apply, iota_single_apply]
  show FloatOps.sitofp .f32 (hotS (BitVec.ofNat 32 r.val) (BitVec.ofNat 32 j.val)) = _
  rw [hotS_eq r j, sitofp_hot]

/-- `E' (k, w)` is one where `⌊w / 8⌋ = k`. -/
theorem E'_apply (k : Fin 16) (w : Fin 128) :
    (sitofp .f32 (hot (iota .tc S16x128 32 [1] Facts₀.iota_S16x128_d1_w32) (iota .tc S16x128 32 [0] Facts₀.iota_S16x128_d0_w32)) : FVec Ideal S16x128 .f32) (ix2 k w)
      = if w.val / 8 = k.val then 1 else 0 := by
  show FloatOps.sitofp .f32 (hotS (iota .tc S16x128 32 [1] Facts₀.iota_S16x128_d1_w32 (ix2 k w)) (iota .tc S16x128 32 [0] Facts₀.iota_S16x128_d0_w32 (ix2 k w))) = _
  rw [iota_single_apply, iota_single_apply]
  show FloatOps.sitofp .f32 (hotS (BitVec.ofNat 32 w.val) (BitVec.ofNat 32 k.val)) = _
  rw [hotS_eq w k, sitofp_hot]

/-! ## The mask at an index -/

/-- The expanded mask at `(r, w)` is the block's mask at `(⌊r / 8⌋, ⌊w / 8⌋)`. -/
theorem mask_apply (v15 : FVec Ideal S16x16 .f32) (r : Fin 128) (u : Fin 1) (w : Fin 128) :
    k0_pay8 (F := Ideal) v15 k0_pay5 k0_pay6 k0_pay7 (ix3 r u w)
      = v15 (ix2 (⟨r.val / 8, by have := r.isLt; omega⟩ : Fin 16) (⟨w.val / 8, by have := w.isLt; omega⟩ : Fin 16)) := by
  have hr : r.val / 8 < 16 := by have := r.isLt; omega
  have hw : w.val / 8 < 16 := by have := w.isLt; omega
  rw [pay8_eq]
  refine (LibMid.shapeCast_ab_a1b_apply _ _ r u w).trans ?_
  refine (LibPlainDot.matmul_plain_apply _ rfl rfl rfl rfl rfl rfl none _ _ r w).trans ?_
  rw [Finset.sum_eq_single (⟨w.val / 8, hw⟩ : Fin 16)
    (fun k _ hk => by rw [E'_apply, if_neg (fun h => hk (Fin.ext h.symm)), mul_zero])
    (fun h => absurd (Finset.mem_univ _) h), E'_apply, if_pos rfl, mul_one]
  refine (LibPlainDot.matmul_plain_apply _ rfl rfl rfl rfl rfl rfl none _ _ r _).trans ?_
  rw [Finset.sum_eq_single (⟨r.val / 8, hr⟩ : Fin 16)
    (fun j _ hj => by rw [E_apply, if_neg (fun h => hj (Fin.ext h.symm)), zero_mul])
    (fun h => absurd (Finset.mem_univ _) h), E_apply, if_pos rfl, one_mul]

end Cert.KernelIdeal.KValue

end
-- ==== Proof.Payload.lean ====
/-
  The body's arithmetic at one entry of the block. With the block's `[1, 128, 96, 128]` values `x1` (rows, channels,
  columns), the affine pair's two `[96, 128]` tables and the `[1, 1, 16, 16]` integer mask, the value stored at
  `(0, h, c, w)` is the layer normalization of the 96 channel values at `(h, ·, w)`, read at channel `c`, with the
  tables' entries at `(c, w)` and the mask entry at `(⌊h / 8⌋, ⌊w / 8⌋)`: the mean and the mean square are sums over the
  middle axis, kept as a unit axis and broadcast back.
-/
import proofs.«149506_g1726576857584_cont_7to1_533_26_alg».proof.Proof.Gen.KernelIdeal.Skeleton
import proofs.«149506_g1726576857584_cont_7to1_533_26_alg».proof.Proof.Spec
import proofs.«149506_g1726576857584_cont_7to1_533_26_alg».proof.Proof.Mask
import proofs.«149506_g1726576857584_cont_7to1_533_26_alg».proof.Proof.LibMid
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.KValue

open Cert.KernelIdeal Cert.KernelIdeal.Gen
open Idealize.ShloMosaic Idealize.ShloMosaic.ValueIdx
open scoped BigOperators

/-- A `[1, 1, a, b]` array cast to `[a, b]` reads, at `(p, q)`, the operand at `(0, 0, p, q)`. -/
theorem shapeCast_11ab_ab_apply {α : Type} {a b : ℕ} (x : (⟨4, ![1, 1, a, b]⟩ : Shape).Idx → α)
    (h : (⟨4, ![1, 1, a, b]⟩ : Shape).ShapeCasts ⟨2, ![a, b]⟩) (p : Fin a) (q : Fin b) :
    shapeCast ⟨2, ![a, b]⟩ x h (ix2 p q) = x (ix4 (0 : Fin 1) (0 : Fin 1) p q) :=
  shapeCast_apply x h _ _ (by
    rw [Shape.rowMajor_val_four, Shape.rowMajor_val_two]
    show ((0 * 1 + 0) * a + p.val) * b + q.val = p.val * b + q.val
    first | rfl | simp)

/-- The body's sum over the channel axis of a `[128, 96, 128]` value, at `(h, w)`. -/
theorem sum_mid (y : FVec Ideal S128x96x128 .f32) (hφ : FKind.Formats .f32) (hacc : (0x00000000#32 : BitVec 32) = FKind.add.neutral .f32 hφ)
    (h w : Fin 128) :
    multiReduction .add [1] S128x128 y 0x00000000#32 Facts₀.reduces_S128x96x128_S128x128 hφ hacc (ix2 h w) = ∑ k : Fin 96, y (ix3 h k w) :=
  LibMid.multiReduction_add_mid_apply y _ _ hφ hacc h w

/-- The centred values: the entry less the mean of its 96 channel values. -/
theorem pay2_apply (v0 : Vec Ideal S1x128x96x128 .f32) (h : Fin 128) (c : Fin 96) (w : Fin 128) :
    k0_pay2 (F := Ideal) v0 (ix3 h c w)
      = v0 (ix4 (0 : Fin 1) h c w) - Ideal.div (∑ k : Fin 96, v0 (ix4 (0 : Fin 1) h k w)) (Ideal.ofBits .f32 0x42C00000#32) := by
  unfold k0_pay2
  simp only [subf_apply, LibMid.broadcastTo_a1b_anb_apply, divf_apply, LibMid.shapeCast_ab_a1b_apply,
    shapeCast_1abc_abc_apply, broadcast_apply]
  refine congrArg (fun z => v0 (ix4 (0 : Fin 1) h c w) - Ideal.div z (Ideal.ofBits .f32 0x42C00000#32)) ?_
  refine (LibMid.multiReduction_add_mid_apply _ _ _ _ _ h w).trans ?_
  exact Finset.sum_congr rfl fun k _ => shapeCast_1abc_abc_apply v0 _ h k w

/-- The mean square of the centred values. -/
theorem pay3_apply (v0 : Vec Ideal S1x128x96x128 .f32) (h w : Fin 128) :
    k0_pay3 (F := Ideal) v0 (ix3 h (0 : Fin 1) w)
      = Ideal.div (∑ k : Fin 96, k0_pay2 (F := Ideal) v0 (ix3 h k w) * k0_pay2 (F := Ideal) v0 (ix3 h k w))
          (Ideal.ofBits .f32 0x42C00000#32) := by
  unfold k0_pay3
  simp only [divf_apply, LibMid.shapeCast_ab_a1b_apply, broadcast_apply]
  refine congrArg (fun z => Ideal.div z (Ideal.ofBits .f32 0x42C00000#32)) ?_
  exact LibMid.multiReduction_add_mid_apply _ _ _ _ _ h w

/-- The scaled and weighted value: the centred value times the reciprocal square root of the mean square plus the
    offset, times the first table's entry. -/
theorem pay9_apply (v7 : FVec Ideal S128x96x128 .f32) (v12 : FVec Ideal S128x1x128 .f32) (v82 : Vec Ideal S96x128 .f32)
    (h : Fin 128) (c : Fin 96) (w : Fin 128) :
    k0_pay9 (F := Ideal) v7 v12 v82 (ix3 h c w)
      = (v7 (ix3 h c w) * Ideal.rsqrt (v12 (ix3 h (0 : Fin 1) w) + Ideal.ofBits .f32 0x358637BD#32)) * v82 (ix2 c w) := by
  unfold k0_pay9
  simp only [mulf_apply, LibMid.broadcastTo_a1b_anb_apply, LibMid.broadcastTo_1nb_anb_apply, shapeCast_ab_1ab_apply,
    shapeCast_self]
  rfl

/-- The stored value: the weighted value plus the second table's entry, times the mask. -/
theorem pay1_apply (v76 : FVec Ideal S128x1x128 .f32) (v86 : FVec Ideal S128x96x128 .f32) (v87 : Vec Ideal S96x128 .f32)
    (u : Fin 1) (h : Fin 128) (c : Fin 96) (w : Fin 128) :
    k0_pay1 (F := Ideal) v76 v86 v87 (ix4 u h c w) = (v86 (ix3 h c w) + v87 (ix2 c w)) * v76 (ix3 h (0 : Fin 1) w) := by
  unfold k0_pay1
  simp only [shapeCast_abc_1abc_apply, mulf_apply, addf_apply, LibMid.broadcastTo_a1b_anb_apply,
    LibMid.broadcastTo_1nb_anb_apply, shapeCast_ab_1ab_apply, shapeCast_self]

/-- The block's mask as floats. -/
theorem pay4_apply (v13 : Vec Ideal S1x1x16x16 .i32) (p q : Fin 16) :
    k0_pay4 (F := Ideal) v13 (ix2 p q) = FloatOps.sitofp .f32 (v13 (ix4 (0 : Fin 1) (0 : Fin 1) p q)) := by
  unfold k0_pay4
  simp only [sitofp_apply, shapeCast_11ab_ab_apply]

/-- THE BODY at one entry: the layer normalization of the position's channel values. -/
theorem body_apply (x0 : Vec Ideal S1x1x16x16 .i32) (x1 : Vec Ideal S1x128x96x128 .f32) (x2 x3 : Vec Ideal S96x128 .f32)
    (u : Fin 1) (h : Fin 128) (c : Fin 96) (w : Fin 128) :
    k0_pay1 (F := Ideal) (k0_pay8 (k0_pay4 x0) k0_pay5 k0_pay6 k0_pay7) (k0_pay9 (k0_pay2 x1) (k0_pay3 x1) x2) x3 (ix4 u h c w)
      = Cert.LN.lnCore (fun k => x1 (ix4 (0 : Fin 1) h k w)) c (x2 (ix2 c w)) (x3 (ix2 c w))
          (FloatOps.sitofp (F := Ideal) .f32
            (x0 (ix4 (0 : Fin 1) (0 : Fin 1) (⟨h.val / 8, by have := h.isLt; omega⟩ : Fin 16)
              (⟨w.val / 8, by have := w.isLt; omega⟩ : Fin 16)))) := by
  rw [pay1_apply, mask_apply, pay4_apply, pay9_apply, pay3_apply]
  simp only [pay2_apply]
  rfl

end Cert.KernelIdeal.KValue

end
-- ==== Proof.Blocks.lean ====
/-
  From blocks to the array. The grid has 32 points; point `t` reads image `t` of the transposed input (a
  `[1, 128, 96, 128]` block), the image's `[1, 1, 16, 16]` mask and the two whole `[96, 128]` tables, and writes
  image `t` of the `[32, 128, 96, 128]` result. The host lines before the region transpose the input's two last
  axes and broadcast the two 96-vectors along the column axis; the one after it transposes the result back. So the
  program's result at `(b, h, w, c)` is the body's value at entry `(0, h, c, w)` of point `b`.
-/
import proofs.«149506_g1726576857584_cont_7to1_533_26_alg».proof.Proof.Gen.KernelIdeal.Frame
import proofs.«149506_g1726576857584_cont_7to1_533_26_alg».proof.Proof.Spec
import proofs.«149506_g1726576857584_cont_7to1_533_26_alg».proof.Proof.Payload
import Idealize.ShloMosaic.Lib.Pipeline.Value
import Idealize.ShloMosaic.Lib.StableHlo.Run
import Idealize.ShloMosaic.Lib.Tactic
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen
open Idealize.ShloMosaic.ValueIdx Idealize.ShloMosaic.StableHlo

variable (m : (ℓ : Loc nD τ sig) → Buf (Elt Ideal) ℓ) (ρ : Dev nD → PrngReg)

/-! ## The arrays the region finds -/

/-- The region's input array is the argument with its two last axes exchanged. -/
theorem V_v0 (c : Dev nD) : (V m c main_v0 : S32x128x96x128.Idx → EReal)
    = transpose S32x128x96x128 [0, 1, 3, 2] (m ((c : Thread nD τ).loc main_arg0)) Facts₀.transposes_S32x128x128x96_S32x128x96x128_0_1_3_2 := by
  show StableHlo.after hostOps0 (fun b => m (c, b)) (Proc.devRef .tc main_v0) = _
  after_results

theorem V_v0_apply (c : Dev nD) (b : Fin 32) (h : Fin 128) (k : Fin 96) (w : Fin 128) :
    (V m c main_v0 : S32x128x96x128.Idx → EReal) (ix4 b h k w)
      = (m ((c : Thread nD τ).loc main_arg0) : S32x128x128x96.Idx → EReal) (ix4 b h w k) := by
  rw [V_v0]
  exact transpose_apply _ _ _ _ _ fun a => match a with | ⟨0, _⟩ => rfl | ⟨1, _⟩ => rfl | ⟨2, _⟩ => rfl | ⟨3, _⟩ => rfl

/-- The first table is the weight vector repeated along the columns. -/
theorem V_v2 (c : Dev nD) : (V m c main_v2 : S96x128.Idx → EReal)
    = broadcastInDim S96x128 ![0, 1] Facts₀.bcast_S96x1_S96x128_0_1
        (broadcastInDim S96x1 ![0] Facts₀.bcast_S96_S96x1_0 (m ((c : Thread nD τ).loc main_arg2))) := by
  show StableHlo.after hostOps0 (fun b => m (c, b)) (Proc.devRef .tc main_v2) = _
  after_results

/-- The second table is the bias vector repeated along the columns. -/
theorem V_v4 (c : Dev nD) : (V m c main_v4 : S96x128.Idx → EReal)
    = broadcastInDim S96x128 ![0, 1] Facts₀.bcast_S96x1_S96x128_0_1
        (broadcastInDim S96x1 ![0] Facts₀.bcast_S96_S96x1_0 (m ((c : Thread nD τ).loc main_arg3))) := by
  show StableHlo.after hostOps0 (fun b => m (c, b)) (Proc.devRef .tc main_v4) = _
  after_results

/-- A 96-vector repeated along 128 columns reads, at `(k, w)`, the vector at `k`. -/
theorem table_apply (x : S96.Idx → EReal) (k : Fin 96) (w : Fin 128) :
    broadcastInDim S96x128 ![0, 1] Facts₀.bcast_S96x1_S96x128_0_1 (broadcastInDim S96x1 ![0] Facts₀.bcast_S96_S96x1_0 x) (ix2 k w)
      = x (ix1 k) := by
  refine (broadcastInDim_apply _ _ _ (ix2 k w) (ix2 k (0 : Fin 1)) fun a => ?_).trans
    (broadcastInDim_apply _ _ x (ix2 k (0 : Fin 1)) (ix1 k) fun a => ?_)
  · match a with
    | ⟨0, _⟩ => show k.val = if (96 : ℕ) = 1 then 0 else k.val; rw [if_neg (by decide)]
    | ⟨1, _⟩ => show 0 = if (1 : ℕ) = 1 then 0 else w.val; rw [if_pos rfl]
  · match a with
    | ⟨0, _⟩ => show k.val = if (96 : ℕ) = 1 then 0 else k.val; rw [if_neg (by decide)]

/-! ## The blocks -/

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The printed index maps, decided over the grid: the output's block is image `index 0` whole; the input's and the mask's
    blocks are the same image's; the tables' one block is the whole table. -/
theorem idx_facts : ∀ t : Fin cfg0.N,
    win0_4.index t (0 : Fin 4) < 32 ∧ win0_4.index t (1 : Fin 4) = 0 ∧ win0_4.index t (2 : Fin 4) = 0 ∧ win0_4.index t (3 : Fin 4) = 0
    ∧ win0_1.index t (0 : Fin 4) = win0_4.index t (0 : Fin 4) ∧ win0_1.index t (1 : Fin 4) = 0 ∧ win0_1.index t (2 : Fin 4) = 0 ∧ win0_1.index t (3 : Fin 4) = 0
    ∧ win0_0.index t (0 : Fin 4) = win0_4.index t (0 : Fin 4) ∧ win0_0.index t (1 : Fin 4) = 0 ∧ win0_0.index t (2 : Fin 4) = 0 ∧ win0_0.index t (3 : Fin 4) = 0
    ∧ win0_2.index t (0 : Fin 2) = 0 ∧ win0_2.index t (1 : Fin 2) = 0 ∧ win0_3.index t (0 : Fin 2) = 0 ∧ win0_3.index t (1 : Fin 2) = 0 :=
  (by decide +kernel : ∀ t : Fin grid0.N, _)

/-- Every image is some point's. -/
theorem idx_onto : ∀ q0 : Fin 32, ∃ t : Fin cfg0.N, win0_4.index t = ![q0.val, 0, 0, 0] :=
  (by decide +kernel : ∀ q0 : Fin 32, ∃ t : Fin grid0.N, win0_4.index t = ![q0.val, 0, 0, 0])

/-- The input's block at point `t`: image `tb` of the transposed input. -/
theorem iblk1_apply (c : Dev nD) (t : Fin cfg0.N) (tb : Fin 32) (htb : win0_4.index t (0 : Fin 4) = tb.val) (y : S1x128x96x128.Idx) :
    (iblk m c 1 t : Vec Ideal S1x128x96x128 .f32) y = (V m c main_v0 : S32x128x96x128.Idx → EReal) (ix4 tb (y 1) (y 2) (y 3)) := by
  obtain ⟨e0, e1, e2, e3, f0, f1, f2, f3, -⟩ := idx_facts t
  unfold iblk
  rw [View.read_apply]
  show V m c main_v0 _ = V m c main_v0 _
  congr 1
  funext a
  apply Fin.ext
  have hy : (y 0).val < 1 := (y 0).isLt
  match a with
  | ⟨0, _⟩ => show win0_1.index t (0 : Fin 4) * 1 + 1 * (y 0).val = tb.val; omega
  | ⟨1, _⟩ => show win0_1.index t (1 : Fin 4) * 128 + 1 * (y 1).val = (y 1).val; omega
  | ⟨2, _⟩ => show win0_1.index t (2 : Fin 4) * 96 + 1 * (y 2).val = (y 2).val; omega
  | ⟨3, _⟩ => show win0_1.index t (3 : Fin 4) * 128 + 1 * (y 3).val = (y 3).val; omega

/-- The mask's block at point `t`: image `tb`'s mask. -/
theorem iblk0_apply (c : Dev nD) (t : Fin cfg0.N) (tb : Fin 32) (htb : win0_4.index t (0 : Fin 4) = tb.val) (y : S1x1x16x16.Idx) :
    (iblk m c 0 t : Vec Ideal S1x1x16x16 .i32) y = (V m c main_arg1 : S32x1x16x16.Idx → BitVec 32) (ix4 tb (0 : Fin 1) (y 2) (y 3)) := by
  obtain ⟨e0, e1, e2, e3, f0, f1, f2, f3, g0, g1, g2, g3, -⟩ := idx_facts t
  unfold iblk
  rw [View.read_apply]
  show V m c main_arg1 _ = V m c main_arg1 _
  congr 1
  funext a
  apply Fin.ext
  have hy0 : (y 0).val < 1 := (y 0).isLt
  have hy1 : (y 1).val < 1 := (y 1).isLt
  match a with
  | ⟨0, _⟩ => show win0_0.index t (0 : Fin 4) * 1 + 1 * (y 0).val = tb.val; omega
  | ⟨1, _⟩ => show win0_0.index t (1 : Fin 4) * 1 + 1 * (y 1).val = 0; omega
  | ⟨2, _⟩ => show win0_0.index t (2 : Fin 4) * 16 + 1 * (y 2).val = (y 2).val; omega
  | ⟨3, _⟩ => show win0_0.index t (3 : Fin 4) * 16 + 1 * (y 3).val = (y 3).val; omega

/-- A table's block is the table. -/
theorem iblk2_apply (c : Dev nD) (t : Fin cfg0.N) (y : S96x128.Idx) :
    (iblk m c 2 t : Vec Ideal S96x128 .f32) y = (V m c main_v2 : S96x128.Idx → EReal) y := by
  obtain ⟨e0, e1, e2, e3, f0, f1, f2, f3, g0, g1, g2, g3, p0, p1, q0, q1⟩ := idx_facts t
  unfold iblk
  rw [View.read_apply]
  show V m c main_v2 _ = V m c main_v2 _
  congr 1
  funext a
  apply Fin.ext
  match a with
  | ⟨0, _⟩ => show win0_2.index t (0 : Fin 2) * 96 + 1 * (y 0).val = (y 0).val; omega
  | ⟨1, _⟩ => show win0_2.index t (1 : Fin 2) * 128 + 1 * (y 1).val = (y 1).val; omega

theorem iblk3_apply (c : Dev nD) (t : Fin cfg0.N) (y : S96x128.Idx) :
    (iblk m c 3 t : Vec Ideal S96x128 .f32) y = (V m c main_v4 : S96x128.Idx → EReal) y := by
  obtain ⟨e0, e1, e2, e3, f0, f1, f2, f3, g0, g1, g2, g3, p0, p1, q0, q1⟩ := idx_facts t
  unfold iblk
  rw [View.read_apply]
  show V m c main_v4 _ = V m c main_v4 _
  congr 1
  funext a
  apply Fin.ext
  match a with
  | ⟨0, _⟩ => show win0_3.index t (0 : Fin 2) * 96 + 1 * (y 0).val = (y 0).val; omega
  | ⟨1, _⟩ => show win0_3.index t (1 : Fin 2) * 128 + 1 * (y 1).val = (y 1).val; omega

/-- The four blocks as entries of the program's arguments. -/
theorem iblk1_arg (c : Dev nD) (t : Fin cfg0.N) (tb : Fin 32) (htb : win0_4.index t (0 : Fin 4) = tb.val) (y : S1x128x96x128.Idx) :
    (iblk m c 1 t : Vec Ideal S1x128x96x128 .f32) y
      = (m ((c : Thread nD τ).loc main_arg0) : S32x128x128x96.Idx → EReal) (ix4 tb (y 1) (y 3) (y 2)) :=
  (iblk1_apply m c t tb htb y).trans (V_v0_apply m c tb (y 1) (y 2) (y 3))

theorem iblk0_arg (c : Dev nD) (t : Fin cfg0.N) (tb : Fin 32) (htb : win0_4.index t (0 : Fin 4) = tb.val) (y : S1x1x16x16.Idx) :
    (iblk m c 0 t : Vec Ideal S1x1x16x16 .i32) y
      = (m ((c : Thread nD τ).loc main_arg1) : S32x1x16x16.Idx → BitVec 32) (ix4 tb (0 : Fin 1) (y 2) (y 3)) :=
  (iblk0_apply m c t tb htb y).trans (congrFun (V_main_arg1 m c) _)

theorem iblk2_arg (c : Dev nD) (t : Fin cfg0.N) (y : S96x128.Idx) :
    (iblk m c 2 t : Vec Ideal S96x128 .f32) y = (m ((c : Thread nD τ).loc main_arg2) : S96.Idx → EReal) (ix1 (y 0)) := by
  refine (iblk2_apply m c t y).trans ?_
  obtain ⟨k, w, rfl⟩ : ∃ (k : Fin 96) (w : Fin 128), y = ix2 k w := ⟨y 0, y 1, eq_ix2 y⟩
  rw [V_v2]
  exact table_apply _ k w

theorem iblk3_arg (c : Dev nD) (t : Fin cfg0.N) (y : S96x128.Idx) :
    (iblk m c 3 t : Vec Ideal S96x128 .f32) y = (m ((c : Thread nD τ).loc main_arg3) : S96.Idx → EReal) (ix1 (y 0)) := by
  refine (iblk3_apply m c t y).trans ?_
  obtain ⟨k, w, rfl⟩ : ∃ (k : Fin 96) (w : Fin 128), y = ix2 k w := ⟨y 0, y 1, eq_ix2 y⟩
  rw [V_v4]
  exact table_apply _ k w

/-! ## What a point writes back -/

/-- The region's result array `[32, 128, 96, 128]`: the layer normalization with the two last axes exchanged. -/
def GK (c : Dev nD) : S32x128x96x128.Idx → EReal := fun i =>
  Cert.LN.G (m ((c : Thread nD τ).loc main_arg0)) (m ((c : Thread nD τ).loc main_arg1)) (m ((c : Thread nD τ).loc main_arg2))
    (m ((c : Thread nD τ).loc main_arg3)) (ix4 (i 0) (i 1) (i 3) (i 2))

/-- The body's value at an entry, over blocks that are image `tb` of four arrays. -/
theorem point_eq (A0 : S32x1x16x16.Idx → BitVec 32) (A1 : S32x128x96x128.Idx → EReal) (A2 A3 : S96x128.Idx → EReal)
    (x0 : Vec Ideal S1x1x16x16 .i32) (x1 : Vec Ideal S1x128x96x128 .f32) (x2 x3 : Vec Ideal S96x128 .f32) (tb : Fin 32)
    (h0 : ∀ y : S1x1x16x16.Idx, x0 y = A0 (ix4 tb (0 : Fin 1) (y 2) (y 3)))
    (h1 : ∀ y : S1x128x96x128.Idx, x1 y = A1 (ix4 tb (y 1) (y 2) (y 3)))
    (h2 : ∀ y, x2 y = A2 y) (h3 : ∀ y, x3 y = A3 y) (j : S1x128x96x128.Idx) :
    k0_pay1 (F := Ideal) (k0_pay8 (k0_pay4 x0) k0_pay5 k0_pay6 k0_pay7) (k0_pay9 (k0_pay2 x1) (k0_pay3 x1) x2) x3 j
      = Cert.LN.lnCore (fun k' => A1 (ix4 tb (j 1) k' (j 3))) (j 2) (A2 (ix2 (j 2) (j 3))) (A3 (ix2 (j 2) (j 3)))
          (FloatOps.sitofp (F := Ideal) .f32
            (A0 (ix4 tb (0 : Fin 1) (⟨(j 1).val / 8, by have h : (j 1).val < 128 := (j 1).isLt; omega⟩ : Fin 16)
              (⟨(j 3).val / 8, by have h : (j 3).val < 128 := (j 3).isLt; omega⟩ : Fin 16)))) := by
  obtain ⟨u, h, k, w, rfl⟩ : ∃ (u : Fin 1) (h : Fin 128) (k : Fin 96) (w : Fin 128), j = ix4 u h k w :=
    ⟨j 0, j 1, j 2, j 3, eq_ix4 j⟩
  rw [body_apply, h0, h2, h3]
  simp only [h1]

/-- WHAT POINT `t` WRITES BACK is block `t` of `GK`. -/
theorem flushed_eq (c : Dev nD) (t : Fin cfg0.N) :
    (dats m 0 c).flushed 4 t = ((cfg0.win 4).blk t).view.read (Elt Ideal) (GK m c) := by
  obtain ⟨e0, e1, e2, e3, -⟩ := idx_facts t
  show (cfg0.win 4).cut (grid0.coords t) ((dats m 0 c).after 4 t) = _
  rw [after0_4]
  unfold out0_4
  rw [View.canon_unit_zero hz4]
  simp only [View.ld_unit_zero (S := S1x1x16x16) hz4, View.ld_unit_zero (S := S1x128x96x128) hz4, View.ld_unit_zero (S := S96x128) hz2]
  funext j
  show k0_pay1 (F := Ideal) (k0_pay8 (k0_pay4 (iblk m c 0 t)) k0_pay5 k0_pay6 k0_pay7)
      (k0_pay9 (k0_pay2 (iblk m c 1 t)) (k0_pay3 (iblk m c 1 t)) (iblk m c 2 t)) (iblk m c 3 t) j
    = GK m c (((cfg0.win 4).blk t).view.emb j)
  refine (point_eq (m ((c : Thread nD τ).loc main_arg1))
    (fun i => (m ((c : Thread nD τ).loc main_arg0) : S32x128x128x96.Idx → EReal) (ix4 (i 0) (i 1) (i 3) (i 2)))
    (fun i => (m ((c : Thread nD τ).loc main_arg2) : S96.Idx → EReal) (ix1 (i 0)))
    (fun i => (m ((c : Thread nD τ).loc main_arg3) : S96.Idx → EReal) (ix1 (i 0)))
    (iblk m c 0 t) (iblk m c 1 t) (iblk m c 2 t) (iblk m c 3 t) ⟨win0_4.index t (0 : Fin 4), e0⟩
    (iblk0_arg m c t _ rfl) (iblk1_arg m c t _ rfl) (iblk2_arg m c t) (iblk3_arg m c t) j).trans ?_
  have hemb : (((cfg0.win 4).blk t).view.emb j : S32x128x96x128.Idx)
      = ix4 (⟨win0_4.index t (0 : Fin 4), e0⟩ : Fin 32) (j 1) (j 2) (j 3) := by
    funext a
    apply Fin.ext
    have hy : (j 0).val < 1 := (j 0).isLt
    match a with
    | ⟨0, _⟩ => show win0_4.index t (0 : Fin 4) * 1 + 1 * (j 0).val = win0_4.index t (0 : Fin 4); omega
    | ⟨1, _⟩ => show win0_4.index t (1 : Fin 4) * 128 + 1 * (j 1).val = (j 1).val; omega
    | ⟨2, _⟩ => show win0_4.index t (2 : Fin 4) * 96 + 1 * (j 2).val = (j 2).val; omega
    | ⟨3, _⟩ => show win0_4.index t (3 : Fin 4) * 128 + 1 * (j 3).val = (j 3).val; omega
  refine Eq.trans ?_ (congrArg (GK m c) hemb).symm
  rfl

/-! ## The array after the run -/

/-- An index of the result array is in point `t`'s block iff each coordinate is in the block's range on its axis. -/
theorem mem_blk4 (t : Fin cfg0.N) (i : S32x128x96x128.Idx) :
    i ∈ ((cfg0.win 4).blk t).view.set ↔ ∀ a : Fin 4, win0_4.index t a * S1x128x96x128.size a ≤ (i a).val
      ∧ (i a).val < win0_4.index t a * S1x128x96x128.size a + S1x128x96x128.size a := by
  show i ∈ ((View.whole main_v5).slice (win0_4.rect t)).set ↔ _
  rw [View.set_slice_whole, Rect.mem_set_unit]
  exact Iff.rfl

/-- The 32 images tile the result array, so it ends holding `GK`. -/
theorem final4 (c : Dev nD) : (dats m 0 c).arrAt 4 cfg0.N = GK m c :=
  (dats m 0 c).arrAt_eq_of_cover 4 (GK m c) (fun t _ => flushed_eq m c t) fun i => by
    have hi0 : (i 0).val < 32 := (i 0).isLt
    have hi1 : (i 1).val < 128 := (i 1).isLt
    have hi2 : (i 2).val < 96 := (i 2).isLt
    have hi3 : (i 3).val < 128 := (i 3).isLt
    obtain ⟨t, ht⟩ := idx_onto ⟨(i 0).val, hi0⟩
    have q0 : win0_4.index t (0 : Fin 4) = (i 0).val := congrFun ht 0
    have q1 : win0_4.index t (1 : Fin 4) = 0 := congrFun ht 1
    have q2 : win0_4.index t (2 : Fin 4) = 0 := congrFun ht 2
    have q3 : win0_4.index t (3 : Fin 4) = 0 := congrFun ht 3
    refine ⟨t, flush0_4 t, ?_⟩
    rw [mem_blk4]
    intro a
    match a with
    | ⟨0, _⟩ => show win0_4.index t (0 : Fin 4) * 1 ≤ (i 0).val ∧ (i 0).val < win0_4.index t (0 : Fin 4) * 1 + 1; omega
    | ⟨1, _⟩ => show win0_4.index t (1 : Fin 4) * 128 ≤ (i 1).val ∧ (i 1).val < win0_4.index t (1 : Fin 4) * 128 + 128; omega
    | ⟨2, _⟩ => show win0_4.index t (2 : Fin 4) * 96 ≤ (i 2).val ∧ (i 2).val < win0_4.index t (2 : Fin 4) * 96 + 96; omega
    | ⟨3, _⟩ => show win0_4.index t (3 : Fin 4) * 128 ≤ (i 3).val ∧ (i 3).val < win0_4.index t (3 : Fin 4) * 128 + 128; omega

/-! ## The host line after the region, and the run -/

/-- The program's result: the region's array with its two last axes exchanged back. -/
theorem tail_v6 (c : Dev nD) :
    Pipeline.afterTail₀ cfgs (dats m) 0 (V0 m) [hostOps1] c main_v6
      = Cert.LN.G (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5)
      = GK m c := (Pipeline.withArrays_arr spec0 launch0.win.arr_inj c _ _ 4).trans (final4 m c)
  rw [hw]
  funext i
  obtain ⟨b, h, w, k, rfl⟩ : ∃ (b : Fin 32) (h w : Fin 128) (k : Fin 96), i = ix4 b h w k := ⟨i 0, i 1, i 2, i 3, eq_ix4 i⟩
  exact transpose_apply _ _ _ (ix4 b h w k) (ix4 b h k w) fun a =>
    match a with | ⟨0, _⟩ => rfl | ⟨1, _⟩ => rfl | ⟨2, _⟩ => rfl | ⟨3, _⟩ => rfl

/-- THE RUN, read: the program's result is `G` of its arguments, and the arguments are unchanged. -/
theorem run : θ_run defs (onTc (τ := τ) (main (F := Ideal))) ⟨m, fun _ => 0, ρ⟩ fun r => ∀ c : Dev nD,
      r.2.mem ((c.tc : Thread nD τ).loc main_v6)
        = Cert.LN.G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v6 (Pipeline.mem_restRefs_of main_v6 (by decide) (by decide))).trans (tail_v6 m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.KValue

end
-- ==== Proof.lean ====
/-
  The proof of `Cert.Claim`. The kernel computes a masked layer normalization over the 96 channels of every
  position of a `[32, 128, 128, 96]` input: it works on the input with its two last axes exchanged, takes the mean and
  the mean square of the centred values as sums over the channel axis divided by 96, multiplies by the reciprocal
  square root of the mean square plus a small offset, applies the affine pair, and multiplies by the 16 × 16 integer
  mask expanded eightfold along rows and columns by two products with one-hot matrices. The reference divides by the
  square root instead and expands the mask by repeats. At the extended reals the two agree at every input: the mean
  square of any values is not negative and the offset is positive, and at a positive argument the product with the
  reciprocal square root is the quotient by the square root; a one-hot product picks out one entry because
  `0 · a = 0` and `1 · a = a` for every extended real. So the precondition is not used by the value claim.
  The three frames are the generated frame runs (the reference's is its run with the result dropped); the
  idealization rewrote nothing, so `preserves` is `True`.
-/
import proofs.«149506_g1726576857584_cont_7to1_533_26_alg».proof.Defs
import proofs.«149506_g1726576857584_cont_7to1_533_26_alg».proof.Proof.Gen.Kernel
import proofs.«149506_g1726576857584_cont_7to1_533_26_alg».proof.Proof.Gen.Kernel.Skeleton
import proofs.«149506_g1726576857584_cont_7to1_533_26_alg».proof.Proof.Gen.Kernel.Launch
import proofs.«149506_g1726576857584_cont_7to1_533_26_alg».proof.Proof.Gen.Kernel.Points
import proofs.«149506_g1726576857584_cont_7to1_533_26_alg».proof.Proof.Gen.Kernel.Frame
import proofs.«149506_g1726576857584_cont_7to1_533_26_alg».proof.Proof.Gen.KernelIdeal
import proofs.«149506_g1726576857584_cont_7to1_533_26_alg».proof.Proof.Gen.KernelIdeal.Skeleton
import proofs.«149506_g1726576857584_cont_7to1_533_26_alg».proof.Proof.Gen.KernelIdeal.Launch
import proofs.«149506_g1726576857584_cont_7to1_533_26_alg».proof.Proof.Gen.KernelIdeal.Points
import proofs.«149506_g1726576857584_cont_7to1_533_26_alg».proof.Proof.Gen.KernelIdeal.Frame
import proofs.«149506_g1726576857584_cont_7to1_533_26_alg».proof.Proof.Gen.ReferenceIdeal
import proofs.«149506_g1726576857584_cont_7to1_533_26_alg».proof.Proof.Gen.Pre_finite_inputs
import proofs.«149506_g1726576857584_cont_7to1_533_26_alg».proof.Proof.Gen.ReferenceIdeal.Run
import proofs.«149506_g1726576857584_cont_7to1_533_26_alg».proof.Proof.Gen.ReferenceIdeal.Read
import proofs.«149506_g1726576857584_cont_7to1_533_26_alg».proof.Proof.Spec
import proofs.«149506_g1726576857584_cont_7to1_533_26_alg».proof.Proof.RefIsG
import proofs.«149506_g1726576857584_cont_7to1_533_26_alg».proof.Proof.Blocks
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the masked layer normalization `G` of their (agreeing) arguments. -/
theorem algebraic : Cert.algebraic_KernelIdeal_ReferenceIdeal := by
  intro m ρ m' ρ' _ hagree
  refine ⟨fun c => Cert.LN.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.RefValue.ref_eq_G, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
